-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S16x128 : Shape := ⟨2, ![16, 128]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S1x16 1) : IVec S_ 1 :=
  let main_c_5 : IVec S_ 1 := constantI S_ 1 1#1
  let main_v17 : IVec S_ 1 := (fun x v => Host.reduce IntOp.andi x v reducesTo_S1x16_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S16x128 .f32) (main_arg3 : FVec F S16 .f32) (main_arg4 : FVec F S1x16 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S16x128 .f32 := Host.absf main_arg2
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S1x16 .f32 := Host.absf main_arg4
  let main_cst_4 : FVec F S_ .f32 := constant S_ .f32 0x7F800000#32
  let main_v15 : FVec F S1x16 .f32 := broadcastInDim S1x16 ![] bcast_S_S1x16 main_cst_4
  let main_v16 : IVec S1x16 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S16x128 : Shape := ⟨2, ![16, 128]⟩
abbrev S16 : Shape := ⟨1, ![16]⟩
abbrev S1x16 : Shape := ⟨2, ![1, 16]⟩
abbrev S1 : Shape := ⟨1, ![1]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x128 : Shape := ⟨2, ![10000, 128]⟩
abbrev S10000x16 : Shape := ⟨2, ![10000, 16]⟩
abbrev S128x16 : Shape := ⟨2, ![128, 16]⟩
abbrev S3300000x16 : Shape := ⟨2, ![3300000, 16]⟩
abbrev S100000x1 : Shape := ⟨2, ![100000, 1]⟩
abbrev S10000x1 : Shape := ⟨2, ![10000, 1]⟩
abbrev S16x1 : Shape := ⟨2, ![16, 1]⟩
abbrev S1x1 : Shape := ⟨2, ![1, 1]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S16x128, .f32⟩
  | .hbm, ⟨3, _⟩ => ⟨S16, .f32⟩
  | .hbm, ⟨4, _⟩ => ⟨S1x16, .f32⟩
  | .hbm, ⟨5, _⟩ => ⟨S1, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x1, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x1, .f32⟩
  | .hbm, ⟨79, _⟩ => ⟨S3300000x1, .f32⟩
  | .hbm, ⟨80, _⟩ => ⟨S3300000x1, .f32⟩
  | .hbm, ⟨81, _⟩ => ⟨S_, .f32⟩
  | .hbm, ⟨82, _⟩ => ⟨S100000x1, .f32⟩
  | .hbm, ⟨83, _⟩ => ⟨S3300000x1, .i32⟩
  | .hbm, ⟨84, _⟩ => ⟨S100000x1, .f32⟩
  | .hbm, ⟨85, _⟩ => ⟨S1x1, .f32⟩
  | .hbm, ⟨86, _⟩ => ⟨S100000x1, .f32⟩
  | .hbm, ⟨87, _⟩ => ⟨S100000x1, .f32⟩
  | .hbm, ⟨88, _⟩ => ⟨S100000, .f32⟩
  | .local _ .vmem, ⟨0, _⟩ => ⟨S10000x128, .f32⟩
  | .local _ .vmem, ⟨1, _⟩ => ⟨S10000x128, .f32⟩
  | .local _ .vmem, ⟨2, _⟩ => ⟨S16x128, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x1, .f32⟩
  | .local _ .vmem, ⟨9, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  transposes_S16x128_p1_0_S128x16 : S16x128.Transposes [1, 0] S128x16
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  transposes_S1x16_p1_0_S16x1 : S1x16.Transposes [1, 0] S16x1
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x16_S10000x16_1_0_0_1_n_n_wf : DotDims.WF S10000x128 S128x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x1_S10000x1_1_0_0_1_n_n_wf : DotDims.WF S10000x16 S16x1 S10000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S16x128 : Shape := ⟨2, ![16, 128]⟩
abbrev S16 : Shape := ⟨1, ![16]⟩
abbrev S1x16 : Shape := ⟨2, ![1, 16]⟩
abbrev S1 : Shape := ⟨1, ![1]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S128x16 : Shape := ⟨2, ![128, 16]⟩
abbrev S100000x16 : Shape := ⟨2, ![100000, 16]⟩
abbrev S3300000x16 : Shape := ⟨2, ![3300000, 16]⟩
abbrev S16x1 : Shape := ⟨2, ![16, 1]⟩
abbrev S100000x1 : Shape := ⟨2, ![100000, 1]⟩
abbrev S1x1 : Shape := ⟨2, ![1, 1]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S2x3200000, .i32⟩
  | 2 => ⟨S16x128, .f32⟩
  | 3 => ⟨S16, .f32⟩
  | 4 => ⟨S1x16, .f32⟩
  | 5 => ⟨S1, .f32⟩
  | 6 => ⟨S1x3200000, .i32⟩
  | 7 => ⟨S3200000, .i32⟩
  | 8 => ⟨S1x3200000, .i32⟩
  | 9 => ⟨S3200000, .i32⟩
  | 10 => ⟨S100000, .i32⟩
  | 11 => ⟨S3300000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S128x16, .f32⟩
  | 47 => ⟨S100000x16, .f32⟩
  | 48 => ⟨S_, .i32⟩
  | 49 => ⟨S3300000, .i32⟩
  | 50 => ⟨S3300000, .i1⟩
  | 51 => ⟨S_, .i32⟩
  | 52 => ⟨S3300000, .i32⟩
  | 53 => ⟨S3300000, .i32⟩
  | 54 => ⟨S3300000, .i32⟩
  | 55 => ⟨S3300000x1, .i32⟩
  | 56 => ⟨S3300000x16, .f32⟩
  | 57 => ⟨S3300000x1, .f32⟩
  | 58 => ⟨S3300000x16, .f32⟩
  | 59 => ⟨S3300000x16, .f32⟩
  | 60 => ⟨S_, .f32⟩
  | 61 => ⟨S100000x16, .f32⟩
  | 62 => ⟨S3300000x1, .i32⟩
  | 63 => ⟨S100000x16, .f32⟩
  | 64 => ⟨S1x16, .f32⟩
  | 65 => ⟨S100000x16, .f32⟩
  | 66 => ⟨S100000x16, .f32⟩
  | 67 => ⟨S_, .f32⟩
  | 68 => ⟨S100000x16, .f32⟩
  | 69 => ⟨S100000x16, .f32⟩
  | 70 => ⟨S1x3200000, .i32⟩
  | 71 => ⟨S3200000, .i32⟩
  | 72 => ⟨S1x3200000, .i32⟩
  | 73 => ⟨S3200000, .i32⟩
  | 74 => ⟨S100000, .i32⟩
  | 75 => ⟨S3300000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S16x1, .f32⟩
  | 111 => ⟨S100000x1, .f32⟩
  | 112 => ⟨S_, .i32⟩
  | 113 => ⟨S3300000, .i32⟩
  | 114 => ⟨S3300000, .i1⟩
  | 115 => ⟨S_, .i32⟩
  | 116 => ⟨S3300000, .i32⟩
  | 117 => ⟨S3300000, .i32⟩
  | 118 => ⟨S3300000, .i32⟩
  | 119 => ⟨S3300000x1, .i32⟩
  | 120 => ⟨S3300000x1, .f32⟩
  | 121 => ⟨S3300000x1, .f32⟩
  | 122 => ⟨S3300000x1, .f32⟩
  | 123 => ⟨S_, .f32⟩
  | 124 => ⟨S100000x1, .f32⟩
  | 125 => ⟨S3300000x1, .i32⟩
  | 126 => ⟨S100000x1, .f32⟩
  | 127 => ⟨S1x1, .f32⟩
  | _ => ⟨S100000x128, .f32⟩

abbrev hbmTy0_1 (i : Nat) : BufTy := match i % 128 with
  | 0 => ⟨S100000x1, .f32⟩
  | 1 => ⟨S100000x1, .f32⟩
  | 2 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_17 : Ref sig .tc := ⟨.hbm, 112, rfl⟩
abbrev main_v81 : Ref sig .tc := ⟨.hbm, 113, rfl⟩
abbrev main_v82 : Ref sig .tc := ⟨.hbm, 114, rfl⟩
abbrev main_c_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_19 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  transposes_S16x128_S128x16_1_0 : S16x128.Transposes [1, 0] S128x16
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  transposes_S1x16_S16x1_1_0 : S1x16.Transposes [1, 0] S16x1
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x1_S100000x1_1_0_0_1_n_n_wf : DotDims.WF S100000x16 S16x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.KernelRun.lean ====
/-
  The idealized kernel's run, keeping the result.

  The program is a sequence of eight segments: three stretches of host operations (the two ends of every position,
  the degrees, the positions' weights), the first product region, two more stretches (gather, scale, scatter-add, bias,
  cut at 0), the second product region, and a last stretch (the same propagation step on one column, the bias, the
  reading as a vector). The buffer contents at each boundary are a fold W0, W1, …, W8 from the launch memory: a host
  stretch applies its operations, a region replaces its output array by what its write-backs leave. Every weakly fair
  execution terminates with every buffer at W8; stated here for the result buffer beside the six arguments, which end
  as launched.
-/
import proofs.«125032_j28810640622034_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution terminates, nothing faulting, with the result
    buffer at the last boundary's contents and the arguments as launched. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Result

end
-- ==== Proof.GraphConv.lean ====
/-
  The graph side of a two-layer graph convolution, named once.

  A directed graph on n = 100000 nodes is given as a list of E = 3200000 edges (a row of sources over a row of
  targets); every node also gets a loop, so an edge index ranges over E + n = 3300000 positions. With deg(v) the
  number of positions whose target is v, the weight of a position with ends (s, d) is deg(s)^(-1/2) * deg(d)^(-1/2)
  (taken as 0 at a node of degree 0), and one propagation step of a node table h adds, into row d, the row s of h
  times that weight, over all positions; a bias row is added after. The first layer follows it by max(., 0).

  Everything here is the same text on any float instance: nothing is evaluated and no law of arithmetic is used;
  the definitions only give names to the stretches of operations that the two programs share, so that neither
  is ever opened when the programs are compared.
-/
import proofs.«125032_j28810640622034_1_alg».proof.Proof.Gen.ReferenceIdeal

noncomputable section

namespace Cert.GraphConv

open Idealize.ShloMosaic Cert.ReferenceIdeal Cert.ReferenceIdeal.Gen

variable {F : FTy → Type} [FloatOps F]

/-- The source end of every position: row 0 of the edge list, then the nodes 0 … n-1 for the loops. -/
def srcOf (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The target end of every position: row 1 of the edge list, then the nodes 0 … n-1 for the loops. -/
def dstOf (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A negative node number counts from the end: v + n where v < 0, v elsewhere. -/
def wrap (v : (⟨S3300000, .i32⟩ : BufTy).Contents (Elt F)) : (⟨S3300000, .i32⟩ : BufTy).Contents (Elt F) :=
  select (cmpi .slt v (broadcastInDim S3300000 ![] bcast_S_S3300000 (constantI S_ 32 0#32))) (addi v (broadcastInDim S3300000 ![] bcast_S_S3300000 (constantI S_ 32 100000#32))) v

/-- deg(v): a one added into v for every position whose target is v. -/
def degree (dst : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 dst) (broadcastInDim S3300000 ![] bcast_S_S3300000 (constant S_ .f32 0x3F800000#32))

/-- deg(v)^(-1/2) where deg(v) > 0, and 0 elsewhere. -/
def invSqrtDegree (dst : (⟨S3300000, .i32⟩ : BufTy).Contents (Elt F)) : (⟨S100000, .f32⟩ : BufTy).Contents (Elt F) :=
  select (cmpf .ogt (degree dst) (broadcastInDim S100000 ![] bcast_S_S100000 (constant S_ .f32 0x00000000#32))) (Host.rsqrt (degree dst)) (broadcastInDim S100000 ![] bcast_S_S100000 (id (constant S_ .f32 0x00000000#32)))

/-- The weight of every position: deg(source)^(-1/2) * deg(target)^(-1/2). -/
def edgeNorm (src dst : (⟨S3300000, .i32⟩ : BufTy).Contents (Elt F)) : (⟨S3300000, .f32⟩ : BufTy).Contents (Elt F) :=
  mulf (Host.gather gather_S100000_S3300000x1_S3300000_n_0_n_n_0_1_1 (invSqrtDegree dst) (broadcastInDim S3300000x1 ![0] bcast_S3300000_S3300000x1_0 (wrap src))) (Host.gather gather_S100000_S3300000x1_S3300000_n_0_n_n_0_1_1 (invSqrtDegree dst) (broadcastInDim S3300000x1 ![0] bcast_S3300000_S3300000x1_0 (wrap dst)))

/-- The hidden layer from the transformed node table h (16 columns): row d gathers the rows s of h, each times its
    position's weight; the bias row b is added and the result cut below at 0. -/
def hiddenLayer (src dst : (⟨S3300000, .i32⟩ : BufTy).Contents (Elt F)) (nrm : (⟨S3300000, .f32⟩ : BufTy).Contents (Elt F))
    (h : (⟨S100000x16, .f32⟩ : BufTy).Contents (Elt F)) (b : (⟨S16, .f32⟩ : BufTy).Contents (Elt F)) :
    (⟨S100000x16, .f32⟩ : BufTy).Contents (Elt F) :=
  maximumf (addf (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 dst) (mulf (Host.gather gather_S100000x16_S3300000x1_S3300000x16_1_0_n_n_0_1_116 h (broadcastInDim S3300000x1 ![0] bcast_S3300000_S3300000x1_0 (wrap src))) (broadcastInDim S3300000x16 ![0, 1] bcast_S3300000x1_S3300000x16_0_1 (broadcastInDim S3300000x1 ![0] bcast_S3300000_S3300000x1_0 nrm)))) (broadcastInDim S100000x16 ![0, 1] bcast_S1x16_S100000x16_0_1 (broadcastInDim S1x16 ![1] bcast_S16_S1x16_1 b))) (broadcastInDim S100000x16 ![] bcast_S_S100000x16 (constant S_ .f32 0x00000000#32))

/-- The score of every node from the transformed hidden table h (one column): the same propagation step, the bias
    added, read as a vector. -/
def scoreLayer (src dst : (⟨S3300000, .i32⟩ : BufTy).Contents (Elt F)) (nrm : (⟨S3300000, .f32⟩ : BufTy).Contents (Elt F))
    (h : (⟨S100000x1, .f32⟩ : BufTy).Contents (Elt F)) (b : (⟨S1, .f32⟩ : BufTy).Contents (Elt F)) :
    (⟨S100000, .f32⟩ : BufTy).Contents (Elt F) :=
  shapeCast _ (addf (Host.scatterAdd scatter_S100000x1_S3300000x1_S3300000x1_1_0_0_1 (broadcastInDim S100000x1 ![] bcast_S_S100000x1 (constant S_ .f32 0x00000000#32)) (broadcastInDim S3300000x1 ![0] bcast_S3300000_S3300000x1_0 dst) (mulf (Host.gather gather_S100000x1_S3300000x1_S3300000x1_1_0_n_n_0_1_11 h (broadcastInDim S3300000x1 ![0] bcast_S3300000_S3300000x1_0 (wrap src))) (broadcastInDim S3300000x1 ![0] bcast_S3300000_S3300000x1_0 nrm))) (broadcastInDim S100000x1 ![0, 1] bcast_S1x1_S100000x1_0_1 (broadcastInDim S1x1 ![1] bcast_S1_S1x1_1 b))) shapeCasts_S100000x1_S100000

end Cert.GraphConv

end
-- ==== Proof.KernelStretches.lean ====
/-
  The idealized kernel's host stretches in the shared names.

  Before the first product region the program computes, from the edge list alone, the two ends S, D of every position
  and the positions' weights N; between the regions it turns the first product h into the hidden layer
  hidden(S, D, N, h, b1); after the second region it turns the second product g into the score score(S, D, N, g, b2).
  A region writes only its own output array, and no later host operation writes S, D or N, so each is still what the
  first stretch computed when a later stretch reads it. These are facts about which buffer holds which term: the same
  on any float instance, no arithmetic used.
-/
import proofs.«125032_j28810640622034_1_alg».proof.Proof.Gen.KernelIdeal.Frame
import proofs.«125032_j28810640622034_1_alg».proof.Proof.GraphConv

set_option maxRecDepth 16384

noncomputable section

namespace Cert.KernelIdeal.Stretches

open Idealize.ShloMosaic Idealize.ShloMosaic.TcCoe Idealize.ShloMosaic.StableHlo Idealize.SL.Sem
open Cert.KernelIdeal Cert.KernelIdeal.Gen

variable {F : FTy → Type} [FloatOps F]
variable (m : (ℓ : Loc nD τ sig) → Buf (Elt F) ℓ) (ρ : Dev nD → PrngReg)

/-! ## On entering the first region -/

theorem entry_src (c : Dev nD) : W3 m ρ c (Proc.devRef .tc main_v5) = Cert.GraphConv.srcOf (m ((c : Thread nD τ).loc main_arg1)) := by
  show StableHlo.after hostOps0_2 (StableHlo.after hostOps0_1 (StableHlo.after hostOps0 (W0 m ρ c))) (Proc.devRef .tc main_v5) = _
  simp only [hostOps0, hostOps0_1, hostOps0_2]
  after_results_simp
  rfl

theorem entry_dst (c : Dev nD) : W3 m ρ c (Proc.devRef .tc main_v6) = Cert.GraphConv.dstOf (m ((c : Thread nD τ).loc main_arg1)) := by
  show StableHlo.after hostOps0_2 (StableHlo.after hostOps0_1 (StableHlo.after hostOps0 (W0 m ρ c))) (Proc.devRef .tc main_v6) = _
  simp only [hostOps0, hostOps0_1, hostOps0_2]
  after_results_simp
  rfl

theorem entry_norm (c : Dev nD) : W3 m ρ c (Proc.devRef .tc main_v29) = Cert.GraphConv.edgeNorm (Cert.GraphConv.srcOf (m ((c : Thread nD τ).loc main_arg1))) (Cert.GraphConv.dstOf (m ((c : Thread nD τ).loc main_arg1))) := by
  show StableHlo.after hostOps0_2 (StableHlo.after hostOps0_1 (StableHlo.after hostOps0 (W0 m ρ c))) (Proc.devRef .tc main_v29) = _
  simp only [hostOps0, hostOps0_1, hostOps0_2]
  after_results_simp
  rfl

/-- An argument no operation writes is still the launch memory's. -/
theorem entry_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0, hostOps0_1, hostOps0_2]
  after_results_simp
theorem entry_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  simp only [hostOps0, hostOps0_1, hostOps0_2]
  after_results_simp
theorem entry_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  simp only [hostOps0, hostOps0_1, hostOps0_2]
  after_results_simp
theorem entry_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  simp only [hostOps0, hostOps0_1, hostOps0_2]
  after_results_simp
theorem entry_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  simp only [hostOps0, hostOps0_1, hostOps0_2]
  after_results_simp

/-! ## Between the regions -/

/-- The stretch between the regions does not write a buffer of the first stretch or an argument. -/
theorem between_kept (c : Dev nD) (b : Ref sig .tc)
    (hb : b = main_v5 ∨ b = main_v6 ∨ b = main_v29 ∨ b = main_arg4 ∨ b = main_arg5) :
    W6 m ρ c (Proc.devRef .tc b) = W4 m ρ c (Proc.devRef .tc b) := by
  show StableHlo.after hostOps1_1 (StableHlo.after hostOps1 (W4 m ρ c)) (Proc.devRef .tc b) = _
  simp only [hostOps1, hostOps1_1]
  rcases hb with rfl | rfl | rfl | rfl | rfl <;> (after_results_simp <;> rfl)

/-- The hidden layer, from the first region's output array. -/
theorem hidden_eq (c : Dev nD) :
    W6 m ρ c (Proc.devRef .tc main_v47)
      = Cert.GraphConv.hiddenLayer (Cert.GraphConv.srcOf (m ((c : Thread nD τ).loc main_arg1))) (Cert.GraphConv.dstOf (m ((c : Thread nD τ).loc main_arg1))) (Cert.GraphConv.edgeNorm (Cert.GraphConv.srcOf (m ((c : Thread nD τ).loc main_arg1))) (Cert.GraphConv.dstOf (m ((c : Thread nD τ).loc main_arg1)))) (W4 m ρ c (Proc.devRef .tc main_v30)) (m ((c : Thread nD τ).loc main_arg3)) := by
  show StableHlo.after hostOps1_1 (StableHlo.after hostOps1 (W4 m ρ c)) (Proc.devRef .tc main_v47) = _
  simp only [hostOps1, hostOps1_1]
  after_results_simp
  rw [W4_of_ne m ρ c main_v5 (by decide), W4_of_ne m ρ c main_v6 (by decide), W4_of_ne m ρ c main_v29 (by decide),
    W4_of_ne m ρ c main_arg3 (by decide), entry_src, entry_dst, entry_norm, entry_arg3]
  rfl

/-! ## After the second region -/

theorem exit_src (c : Dev nD) : W7 m ρ c (Proc.devRef .tc main_v5) = Cert.GraphConv.srcOf (m ((c : Thread nD τ).loc main_arg1)) :=
  (W7_of_ne m ρ c main_v5 (by decide)).trans ((between_kept m ρ c main_v5 (.inl rfl)).trans
    ((W4_of_ne m ρ c main_v5 (by decide)).trans (entry_src m ρ c)))
theorem exit_dst (c : Dev nD) : W7 m ρ c (Proc.devRef .tc main_v6) = Cert.GraphConv.dstOf (m ((c : Thread nD τ).loc main_arg1)) :=
  (W7_of_ne m ρ c main_v6 (by decide)).trans ((between_kept m ρ c main_v6 (.inr (.inl rfl))).trans
    ((W4_of_ne m ρ c main_v6 (by decide)).trans (entry_dst m ρ c)))
theorem exit_norm (c : Dev nD) : W7 m ρ c (Proc.devRef .tc main_v29) = Cert.GraphConv.edgeNorm (Cert.GraphConv.srcOf (m ((c : Thread nD τ).loc main_arg1))) (Cert.GraphConv.dstOf (m ((c : Thread nD τ).loc main_arg1))) :=
  (W7_of_ne m ρ c main_v29 (by decide)).trans ((between_kept m ρ c main_v29 (.inr (.inr (.inl rfl)))).trans
    ((W4_of_ne m ρ c main_v29 (by decide)).trans (entry_norm m ρ c)))
theorem exit_arg5 (c : Dev nD) : W7 m ρ c (Proc.devRef .tc main_arg5) = m ((c : Thread nD τ).loc main_arg5) :=
  (W7_of_ne m ρ c main_arg5 (by decide)).trans ((between_kept m ρ c main_arg5 (.inr (.inr (.inr (.inr rfl))))).trans
    ((W4_of_ne m ρ c main_arg5 (by decide)).trans (entry_arg5 m ρ c)))
/-- The second weight table, on entering the second region. -/
theorem second_arg4 (c : Dev nD) : W6 m ρ c (Proc.devRef .tc main_arg4) = m ((c : Thread nD τ).loc main_arg4) :=
  (between_kept m ρ c main_arg4 (.inr (.inr (.inr (.inl rfl))))).trans ((W4_of_ne m ρ c main_arg4 (by decide)).trans (entry_arg4 m ρ c))

/-- The score, from the second region's output array. -/
theorem score_eq (c : Dev nD) :
    W8 m ρ c (Proc.devRef .tc main_v64)
      = Cert.GraphConv.scoreLayer (Cert.GraphConv.srcOf (m ((c : Thread nD τ).loc main_arg1))) (Cert.GraphConv.dstOf (m ((c : Thread nD τ).loc main_arg1))) (Cert.GraphConv.edgeNorm (Cert.GraphConv.srcOf (m ((c : Thread nD τ).loc main_arg1))) (Cert.GraphConv.dstOf (m ((c : Thread nD τ).loc main_arg1)))) (W7 m ρ c (Proc.devRef .tc main_v48)) (m ((c : Thread nD τ).loc main_arg5)) := by
  show StableHlo.after hostOps2 (W7 m ρ c) (Proc.devRef .tc main_v64) = _
  simp only [hostOps2]
  after_results_simp
  rw [exit_src, exit_dst, exit_norm, exit_arg5]
  rfl

end Cert.KernelIdeal.Stretches

end
-- ==== Proof.LibColsMatmul.lean ====
/-
  Rows against columns: the plain matrix product read at an index, whatever the operands' float formats.

  For x of shape [a, n] and w of shape [n, b], the product contracting axis 1 of x with axis 0 of w has shape [a, b],
  and its entry (p, e) is the sum over k < n of x(p, k) * w(k, e). On the extended reals the matrix-unit product into a
  zero accumulator is exactly that sum — also when the operands are held in shorter float formats than the
  accumulator, a change of format being the identity there.
-/
import Idealize.ShloMosaic.PureOps.Ideal.Laws
import Idealize.ShloMosaic.Lib.ValueIdx

noncomputable section

namespace Cert.ColsMatmul

open Idealize.ShloMosaic Idealize.ShloMosaic.ValueIdx

variable {a b n : ℕ}

/-- The dimension numbers "contract axis 1 of the left operand with axis 0 of the right, no batch axis". -/
abbrev colsDims (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, n]⟩ ⟨2, ![n, b]⟩ ⟨2, ![a, b]⟩ [1] [0] [0] [1] [] [])

/-- The left operand's index at output (p, e) and contraction index q: row p, -/
theorem lhs_row (i : (⟨2, ![a, b]⟩ : Shape).Idx) (q : (colsDims wf).contr.Idx) :
    ((colsDims wf).lhsIdx i q 0).val = (i 0).val := by
  unfold DotDims.lhsIdx
  rw [dif_neg (show ¬(0 : Fin (⟨2, ![a, n]⟩ : Shape).rank) ∈ (colsDims wf).lhsBatch from List.not_mem_nil),
    dif_pos (show (0 : Fin (⟨2, ![a, n]⟩ : Shape).rank) ∈ (colsDims wf).lhsNonContracting from List.mem_singleton.mpr rfl)]
  rfl
/-- column q. -/
theorem lhs_col (i : (⟨2, ![a, b]⟩ : Shape).Idx) (q : (colsDims wf).contr.Idx) :
    ((colsDims wf).lhsIdx i q 1).val = (q ⟨0, Nat.one_pos⟩).val :=
  (colsDims wf).lhsIdx_val_of_single rfl i q
/-- The right operand's: row q, -/
theorem rhs_row (i : (⟨2, ![a, b]⟩ : Shape).Idx) (q : (colsDims wf).contr.Idx) :
    ((colsDims wf).rhsIdx i q 0).val = (q ⟨0, Nat.one_pos⟩).val :=
  (colsDims wf).rhsIdx_val_of_single rfl i q
/-- column e. -/
theorem rhs_col (i : (⟨2, ![a, b]⟩ : Shape).Idx) (q : (colsDims wf).contr.Idx) :
    ((colsDims wf).rhsIdx i q 1).val = (i 1).val := by
  unfold DotDims.rhsIdx
  rw [dif_neg (show ¬(1 : Fin (⟨2, ![n, b]⟩ : Shape).rank) ∈ (colsDims wf).rhsBatch from List.not_mem_nil),
    dif_pos (show (1 : Fin (⟨2, ![n, b]⟩ : Shape).rank) ∈ (colsDims wf).rhsNonContracting from List.mem_singleton.mpr rfl)]
  rfl

/-- The contraction's sum at (p, e), re-indexed by the one contracted coordinate: row p of x against column e of w. -/
theorem contraction_cols (x : (⟨2, ![a, n]⟩ : Shape).Idx → EReal) (w : (⟨2, ![n, b]⟩ : Shape).Idx → EReal) (p : Fin a) (e : Fin b) :
    ∑ q : (colsDims wf).contr.Idx, x ((colsDims wf).lhsIdx (ix2 p e) q) * w ((colsDims wf).rhsIdx (ix2 p e) q)
      = ∑ k : Fin n, x (ix2 p k) * w (ix2 k e) := by
  rw [← Equiv.sum_comp (contrEquiv1 (colsDims wf) n rfl rfl).symm]
  refine Finset.sum_congr rfl fun k _ => ?_
  have hk := contrEquiv1_symm_val (colsDims wf) n rfl rfl k
  have el : (colsDims wf).lhsIdx (ix2 p e) ((contrEquiv1 (colsDims wf) n rfl rfl).symm k) = ix2 p k := funext fun ax => Fin.ext (by
    match ax with
    | ⟨0, _⟩ => exact lhs_row wf _ _
    | ⟨1, _⟩ => exact (lhs_col wf _ _).trans hk)
  have er : (colsDims wf).rhsIdx (ix2 p e) ((contrEquiv1 (colsDims wf) n rfl rfl).symm k) = ix2 k e := funext fun ax => Fin.ext (by
    match ax with
    | ⟨0, _⟩ => exact (rhs_row wf _ _).trans hk
    | ⟨1, _⟩ => exact rhs_col wf _ _)
  rw [el, er]

/-- The matrix-unit product of an [a, n] and an [n, b] operand of any float formats into the zero accumulator is, at
    (p, e), the sum over k of x(p,k) * w(k,e); the dimension record may be any record equal to `colsDims`. -/
theorem cols_matmul {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) (p : Fin a) (e : Fin b) :
    FloatOps.matmul d none x w (constant ⟨2, ![a, b]⟩ .f32 0x00000000#32) (ix2 p e)
      = ∑ k : Fin n, x (ix2 p k) * w (ix2 k e) := by
  subst hd
  exact (Ideal.matmul_constant_zero_apply (colsDims wf) none x w (ix2 p e)).trans (contraction_cols wf x w p e)

end Cert.ColsMatmul

end
-- ==== Proof.LibRowsTransposed.lean ====
/-
  Rows against rows.

  For x of shape [a, n] and w of shape [b, n] — a table of a rows and a table of b rows, all of length n — the table of
  inner products has shape [a, b] and entry (p, e) = sum over k < n of x(p, k) * w(e, k): it is x times the transpose
  of w. On the extended reals both spellings of "multiply by the transpose" are exactly this table, with the factors
  in this order and nothing assumed finite: the matrix unit's product of x with the transposed w into a zero
  accumulator (the operands may be held in shorter float formats: a change of format is the identity there), and the
  host's contraction of axis 1 of x with axis 0 of the transposed w.
-/
import Idealize.ShloMosaic.PureOps.Ideal.Laws
import Idealize.ShloMosaic.Lib.ValueIdx
import Idealize.ShloMosaic.Lib.ValueLayout
import proofs.«125032_j28810640622034_1_alg».proof.Proof.LibColsMatmul

noncomputable section

namespace Cert.RowsTransposed

open Idealize.ShloMosaic Idealize.ShloMosaic.ValueIdx Cert.ColsMatmul

variable {a b n : ℕ}

/-- The table of inner products of the rows of x with the rows of w. -/
def rowsDot (x : (⟨2, ![a, n]⟩ : Shape).Idx → EReal) (w : (⟨2, ![b, n]⟩ : Shape).Idx → EReal) :
    (⟨2, ![a, b]⟩ : Shape).Idx → EReal :=
  fun i => ∑ k : Fin n, x (ix2 (i 0) k) * w (ix2 (i 1) k)

/-- Its entry at row p, column e. -/
theorem rowsDot_apply (x : (⟨2, ![a, n]⟩ : Shape).Idx → EReal) (w : (⟨2, ![b, n]⟩ : Shape).Idx → EReal) (p : Fin a) (e : Fin b) :
    rowsDot x w (ix2 p e) = ∑ k : Fin n, x (ix2 p k) * w (ix2 e k) := rfl

/-- A sum of products whose factors are, term by term, the entries of row (i 0) of x and of row (i 1) of w is the
    entry of the table at i. -/
theorem sum_eq_rowsDot (x : (⟨2, ![a, n]⟩ : Shape).Idx → EReal) (w : (⟨2, ![b, n]⟩ : Shape).Idx → EReal)
    (i : (⟨2, ![a, b]⟩ : Shape).Idx) (X Y : Fin n → EReal)
    (hX : ∀ k, X k = x (ix2 (i 0) k)) (hY : ∀ k, Y k = w (ix2 (i 1) k)) :
    ∑ k : Fin n, X k * Y k = rowsDot x w i :=
  Finset.sum_congr rfl fun k _ => by rw [hX k, hY k]

variable (wf : DotDims.WF ⟨2, ![a, n]⟩ ⟨2, ![n, b]⟩ ⟨2, ![a, b]⟩ [1] [0] [0] [1] [] [])

/-- The matrix unit's product of x with the transposed w into the zero accumulator, at (p, e): the inner product of
    row p of x with row e of w. -/
theorem matmul_transposed {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![b, n]⟩ φ₂)
    (htr : (⟨2, ![b, n]⟩ : Shape).Transposes [1, 0] ⟨2, ![n, b]⟩) (p : Fin a) (e : Fin b) :
    FloatOps.matmul d none x (transpose ⟨2, ![n, b]⟩ [1, 0] w htr) (constant ⟨2, ![a, b]⟩ .f32 0x00000000#32) (ix2 p e)
      = ∑ k : Fin n, x (ix2 p k) * w (ix2 e k) := by
  refine (cols_matmul wf d hd x (transpose ⟨2, ![n, b]⟩ [1, 0] w htr) p e).trans ?_
  exact Finset.sum_congr rfl fun k _ => congrArg (x (ix2 p k) * ·) (transpose_ix2_apply w htr k e)

/-- The host's contraction of axis 1 of x with axis 0 of the transposed w is the table of inner products. -/
theorem dotGeneral_transposed {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![b, n]⟩ φ₂)
    (htr : (⟨2, ![b, n]⟩ : Shape).Transposes [1, 0] ⟨2, ![n, b]⟩) :
    Host.dotGeneral d none x (transpose ⟨2, ![n, b]⟩ [1, 0] w htr) = rowsDot x w := by
  subst hd
  funext i
  obtain ⟨p, e, rfl⟩ : ∃ (p : Fin a) (e : Fin b), i = ix2 p e := ⟨i 0, i 1, eq_ix2 i⟩
  refine (Ideal.dotGeneral_apply (colsDims wf) none _ x (transpose ⟨2, ![n, b]⟩ [1, 0] w htr) (ix2 p e)).trans ?_
  refine (contraction_cols wf x (transpose ⟨2, ![n, b]⟩ [1, 0] w htr) p e).trans ?_
  exact Finset.sum_congr rfl fun k _ => congrArg (x (ix2 p k) * ·) (transpose_ix2_apply w htr k e)

end Cert.RowsTransposed

end
-- ==== Proof.Layer1Blocks.lean ====
/-
  The first product region's output array.

  The node table x (100000 rows of length 128) is cut into ten blocks of 10000 rows; grid point t takes block t of x
  and the whole weight table W (16 rows of length 128) and writes block t of the output (10000 rows of length 16): the
  matrix unit's product of the block with the transposed W into a zero accumulator, whose entry (r, e) is the inner
  product of row r of the block with row e of W. Row r of block t is row 10000 t + r of x, so what point t writes is
  block t of ONE table, the inner products of the rows of x with the rows of W; the ten blocks tile the output, so
  after the region the output array is that table. Stated at any contents V found on entering the region.
-/
import proofs.«125032_j28810640622034_1_alg».proof.Proof.Gen.KernelIdeal.Frame
import proofs.«125032_j28810640622034_1_alg».proof.Proof.LibRowsTransposed
import Idealize.ShloMosaic.Lib.Pipeline.Value

set_option maxRecDepth 16384

noncomputable section

namespace Cert.KernelIdeal.Layer1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowsTransposed

variable (V : (c : Dev nD) → (b : Ref sig .tc) → Buf (Elt Ideal) ((c : Thread nD τ).loc b))

theorem offsets_zero : (![0, 0] : Fin 2 → Nat) = fun _ => 0 := funext fun a => by fin_cases a <;> rfl

/-- The body's stored value at (r, e): the inner product of row r of the loaded block with row e of the loaded W. -/
theorem stored_apply (X : Vec Ideal S10000x128 .f32) (Wb : Vec Ideal S16x128 .f32) (r : Fin 10000) (e : Fin 16) :
    k0_pay1 (F := Ideal) X Wb (ix2 r e) = ∑ k : Fin 128, X (ix2 r k) * Wb (ix2 e k) := by
  unfold k0_pay1
  exact matmul_transposed dot_S10000x128_S128x16_S10000x16_1_0_0_1_n_n_wf _ rfl
    (truncf .bf16 X bitsLt_bf16_f32) (truncf .bf16 Wb bitsLt_bf16_f32) transposes_S16x128_p1_0_S128x16 r e

/-- The index maps over the grid: point t reads block row t of x and the whole of W, and writes block row t. -/
theorem index_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every block row of the output is some point's. -/
theorem index_onto : ∀ q : Fin 10, ∃ t : Fin cfg0.N, win0_2.index t = ![q.val, 0] :=
  (by decide +kernel : ∀ q : Fin 10, ∃ t : Fin grid0.N, win0_2.index t = ![q.val, 0])

/-- What point t writes back is block t of the table of inner products of the rows of x with the rows of W. -/
theorem flushed_eq (c : Dev nD) (t : Fin cfg0.N) :
    (dat0 V c).flushed 2 t
      = ((cfg0.win 2).blk t).view.read (Elt Ideal) (rowsDot (a := 100000) (n := 128) (b := 16) (V c main_arg0) (V c main_arg2)) := by
  show (cfg0.win 2).cut (grid0.coords t) ((dat0 V c).after 2 t) = _
  rw [after0_2]
  unfold out0_2
  rw [View.canon_unit_zero offsets_zero]
  simp only [View.ld_unit_zero (S := S10000x128) offsets_zero, View.ld_unit_zero (S := S16x128) offsets_zero]
  obtain ⟨e0, e1, e2, e3, e4⟩ := index_facts t
  funext j
  obtain ⟨r, e, rfl⟩ : ∃ (r : Fin 10000) (e : Fin 16), j = ix2 r e := ⟨j 0, j 1, eq_ix2 j⟩
  refine (stored_apply _ _ r e).trans ?_
  show _ = rowsDot (a := 100000) (n := 128) (b := 16) (V c main_arg0) (V c main_arg2) (((cfg0.win 2).blk t).view.emb (ix2 r e))
  refine sum_eq_rowsDot _ _ _ _ _ (fun k => ?_) (fun k => ?_)
  · show V c main_arg0 (((cfg0.win 0).blk t).view.emb (ix2 r k))
      = V c main_arg0 (ix2 ((((cfg0.win 2).blk t).view.emb (ix2 r e)) 0) k)
    refine congrArg (V c main_arg0) ?_
    funext a; apply Fin.ext
    match a with
    | ⟨0, _⟩ => show win0_0.index t (0 : Fin 2) * 10000 + 1 * r.val = win0_2.index t (0 : Fin 2) * 10000 + 1 * r.val; omega
    | ⟨1, _⟩ => show win0_0.index t (1 : Fin 2) * 128 + 1 * k.val = k.val; omega
  · show V c main_arg2 (((cfg0.win 1).blk t).view.emb (ix2 e k))
      = V c main_arg2 (ix2 ((((cfg0.win 2).blk t).view.emb (ix2 r e)) 1) k)
    refine congrArg (V c main_arg2) ?_
    funext a; apply Fin.ext
    match a with
    | ⟨0, _⟩ => show win0_1.index t (0 : Fin 2) * 16 + 1 * e.val = win0_2.index t (1 : Fin 2) * 16 + 1 * e.val; omega
    | ⟨1, _⟩ => show win0_1.index t (1 : Fin 2) * 128 + 1 * k.val = k.val; omega

/-- An index of the output is in point t's block iff each coordinate is in the block's range on its axis. -/
theorem mem_block (t : Fin cfg0.N) (i : S100000x16.Idx) :
    i ∈ ((cfg0.win 2).blk t).view.set ↔ ∀ a : Fin 2, win0_2.index t a * S10000x16.size a ≤ (i a).val
      ∧ (i a).val < win0_2.index t a * S10000x16.size a + S10000x16.size a := by
  show i ∈ ((View.whole main_v30).slice (win0_2.rect t)).set ↔ _
  rw [View.set_slice_whole, Rect.mem_set_unit]
  exact Iff.rfl

/-- Every index of the output is in the block of the point its row falls to: row i lies in block row i / 10000. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- After the region the output array is the table of inner products of the rows of x with the rows of W, as the
    region found them. -/
theorem array_eq (c : Dev nD) :
    (dat0 V c).arrAt 2 cfg0.N = rowsDot (a := 100000) (n := 128) (b := 16) (V c main_arg0) (V c main_arg2) :=
  (dat0 V c).arrAt_eq_of_cover 2 _ (fun t _ => flushed_eq V c t) covered

end Cert.KernelIdeal.Layer1

end
-- ==== Proof.Layer2Blocks.lean ====
/-
  The second product region's output array.

  The hidden layer (100000 rows of length 16) is cut into ten blocks of 10000 rows; grid point t takes block t of it and
  the whole weight table W (one row of length 16) and writes block t of the output (10000 rows of length 1): the matrix
  unit's product of the block with the transposed W into a zero accumulator, whose entry (r, 0) is the inner product of
  row r of the block with the row of W. (The body first reshapes the block to its own shape, which changes nothing.)
  Row r of block t is row 10000 t + r of the hidden layer, so what point t writes is block t of ONE table, the inner
  products of the rows of the hidden layer with the rows of W; the ten blocks tile the output, so after the region the
  output array is that table. Stated at any contents V found on entering the region.
-/
import proofs.«125032_j28810640622034_1_alg».proof.Proof.Gen.KernelIdeal.Frame
import proofs.«125032_j28810640622034_1_alg».proof.Proof.LibRowsTransposed
import Idealize.ShloMosaic.Lib.Pipeline.Value

set_option maxRecDepth 16384

noncomputable section

namespace Cert.KernelIdeal.Layer2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowsTransposed

variable (V : (c : Dev nD) → (b : Ref sig .tc) → Buf (Elt Ideal) ((c : Thread nD τ).loc b))

theorem offsets_zero : (![0, 0] : Fin 2 → Nat) = fun _ => 0 := funext fun a => by fin_cases a <;> rfl

/-- The body's stored value at (r, e): the inner product of row r of the loaded block with row e of the loaded W. -/
theorem stored_apply (X : Vec Ideal S10000x16 .f32) (Wb : Vec Ideal S1x16 .f32) (r : Fin 10000) (e : Fin 1) :
    k1_pay1 (F := Ideal) X Wb (ix2 r e) = ∑ k : Fin 16, X (ix2 r k) * Wb (ix2 e k) := by
  unfold k1_pay1
  refine (matmul_transposed dot_S10000x16_S16x1_S10000x1_1_0_0_1_n_n_wf _ rfl
    (truncf .bf16 (shapeCast S10000x16 X shapeCasts_S10000x16_S10000x16) bitsLt_bf16_f32) (truncf .bf16 Wb bitsLt_bf16_f32)
    transposes_S1x16_p1_0_S16x1 r e).trans ?_
  refine Finset.sum_congr rfl fun k _ => ?_
  exact congrArg (· * Wb (ix2 e k)) (congrFun (shapeCast_self X shapeCasts_S10000x16_S10000x16) (ix2 r k))

/-- The index maps over the grid: point t reads block row t of the hidden layer and the whole of W, and writes block
    row t. -/
theorem index_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 :=
  (by decide +kernel : ∀ t : Fin grid1.N, _)

/-- Every block row of the output is some point's. -/
theorem index_onto : ∀ q : Fin 10, ∃ t : Fin cfg1.N, win1_2.index t = ![q.val, 0] :=
  (by decide +kernel : ∀ q : Fin 10, ∃ t : Fin grid1.N, win1_2.index t = ![q.val, 0])

/-- What point t writes back is block t of the table of inner products of the rows of the hidden layer with the rows
    of W. -/
theorem flushed_eq (c : Dev nD) (t : Fin cfg1.N) :
    (dat1 V c).flushed 2 t
      = ((cfg1.win 2).blk t).view.read (Elt Ideal) (rowsDot (a := 100000) (n := 16) (b := 1) (V c main_v47) (V c main_arg4)) := by
  show (cfg1.win 2).cut (grid1.coords t) ((dat1 V c).after 2 t) = _
  rw [after1_2]
  unfold out1_2
  rw [View.canon_unit_zero offsets_zero]
  simp only [View.ld_unit_zero (S := S10000x16) offsets_zero, View.ld_unit_zero (S := S1x16) offsets_zero]
  obtain ⟨e0, e1, e2, e3, e4⟩ := index_facts t
  funext j
  obtain ⟨r, e, rfl⟩ : ∃ (r : Fin 10000) (e : Fin 1), j = ix2 r e := ⟨j 0, j 1, eq_ix2 j⟩
  refine (stored_apply _ _ r e).trans ?_
  show _ = rowsDot (a := 100000) (n := 16) (b := 1) (V c main_v47) (V c main_arg4) (((cfg1.win 2).blk t).view.emb (ix2 r e))
  refine sum_eq_rowsDot _ _ _ _ _ (fun k => ?_) (fun k => ?_)
  · show V c main_v47 (((cfg1.win 0).blk t).view.emb (ix2 r k))
      = V c main_v47 (ix2 ((((cfg1.win 2).blk t).view.emb (ix2 r e)) 0) k)
    refine congrArg (V c main_v47) ?_
    funext a; apply Fin.ext
    match a with
    | ⟨0, _⟩ => show win1_0.index t (0 : Fin 2) * 10000 + 1 * r.val = win1_2.index t (0 : Fin 2) * 10000 + 1 * r.val; omega
    | ⟨1, _⟩ => show win1_0.index t (1 : Fin 2) * 16 + 1 * k.val = k.val; omega
  · show V c main_arg4 (((cfg1.win 1).blk t).view.emb (ix2 e k))
      = V c main_arg4 (ix2 ((((cfg1.win 2).blk t).view.emb (ix2 r e)) 1) k)
    refine congrArg (V c main_arg4) ?_
    funext a; apply Fin.ext
    match a with
    | ⟨0, _⟩ => show win1_1.index t (0 : Fin 2) * 1 + 1 * e.val = win1_2.index t (1 : Fin 2) * 1 + 1 * e.val; omega
    | ⟨1, _⟩ => show win1_1.index t (1 : Fin 2) * 16 + 1 * k.val = k.val; omega

/-- An index of the output is in point t's block iff each coordinate is in the block's range on its axis. -/
theorem mem_block (t : Fin cfg1.N) (i : S100000x1.Idx) :
    i ∈ ((cfg1.win 2).blk t).view.set ↔ ∀ a : Fin 2, win1_2.index t a * S10000x1.size a ≤ (i a).val
      ∧ (i a).val < win1_2.index t a * S10000x1.size a + S10000x1.size a := by
  show i ∈ ((View.whole main_v48).slice (win1_2.rect t)).set ↔ _
  rw [View.set_slice_whole, Rect.mem_set_unit]
  exact Iff.rfl

/-- Every index of the output is in the block of the point its row falls to: row i lies in block row i / 10000. -/
theorem covered (i : S100000x1.Idx) :
    ∃ t : Fin cfg1.N, (cfg1.win 2).flush t = true ∧ i ∈ ((cfg1.win 2).blk t).view.set := by
  have hi0 : (i 0).val < 100000 := (i 0).isLt
  have hi1 : (i 1).val < 1 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 1 ≤ (i 1).val ∧ (i 1).val < win1_2.index t (1 : Fin 2) * 1 + 1; omega

/-- After the region the output array is the table of inner products of the rows of the hidden layer with the rows of
    W, as the region found them. -/
theorem array_eq (c : Dev nD) :
    (dat1 V c).arrAt 2 cfg1.N = rowsDot (a := 100000) (n := 16) (b := 1) (V c main_v47) (V c main_arg4) :=
  (dat1 V c).arrAt_eq_of_cover 2 _ (fun t _ => flushed_eq V c t) covered

end Cert.KernelIdeal.Layer2

end
-- ==== Proof.Network.lean ====
/-
  The network as one function of its six arrays, on the extended reals.

  score(S, D, N, hidden(S, D, N, x * W1^T, b1) * W2^T, b2): the two propagation layers around the two products with a
  transposed weight table, S, D, N the ends and weights of the positions of the edge list e. Both programs end with
  this array; it is what the two runs' posts are stated with.
-/
import proofs.«125032_j28810640622034_1_alg».proof.Proof.GraphConv
import proofs.«125032_j28810640622034_1_alg».proof.Proof.LibRowsTransposed

noncomputable section

namespace Cert.GraphConv

open Idealize.ShloMosaic Cert.ReferenceIdeal Cert.RowsTransposed

/-- The score of every node. -/
def network (x : (⟨S100000x128, .f32⟩ : BufTy).Contents (Elt Ideal)) (e : (⟨S2x3200000, .i32⟩ : BufTy).Contents (Elt Ideal))
    (w1 : (⟨S16x128, .f32⟩ : BufTy).Contents (Elt Ideal)) (b1 : (⟨S16, .f32⟩ : BufTy).Contents (Elt Ideal))
    (w2 : (⟨S1x16, .f32⟩ : BufTy).Contents (Elt Ideal)) (b2 : (⟨S1, .f32⟩ : BufTy).Contents (Elt Ideal)) :
    (⟨S100000, .f32⟩ : BufTy).Contents (Elt Ideal) :=
  scoreLayer (srcOf e) (dstOf e) (edgeNorm (srcOf e) (dstOf e))
    (rowsDot (a := 100000) (n := 16) (b := 1)
      (hiddenLayer (srcOf e) (dstOf e) (edgeNorm (srcOf e) (dstOf e)) (rowsDot (a := 100000) (n := 128) (b := 16) x w1) b1) w2) b2

end Cert.GraphConv

end
-- ==== Proof.KernelValue.lean ====
/-
  The idealized kernel's result on the extended reals.

  Chasing the result buffer back through the boundaries: the last stretch makes it score(S, D, N, g, b2) with g the
  second region's output array; that array is the table of inner products of the rows of the hidden layer with the
  rows of W2; the hidden layer is hidden(S, D, N, h, b1) with h the first region's output array, the inner products of
  the rows of x with the rows of W1. So the run ends with the network's function of the six argument arrays.
-/
import proofs.«125032_j28810640622034_1_alg».proof.Proof.KernelRun
import proofs.«125032_j28810640622034_1_alg».proof.Proof.KernelStretches
import proofs.«125032_j28810640622034_1_alg».proof.Proof.Layer1Blocks
import proofs.«125032_j28810640622034_1_alg».proof.Proof.Layer2Blocks
import proofs.«125032_j28810640622034_1_alg».proof.Proof.Network

noncomputable section

namespace Cert.KernelIdeal.Result

open Idealize.ShloMosaic Idealize.ShloMosaic.TcCoe Idealize.SL.Sem
open Cert.KernelIdeal Cert.KernelIdeal.Gen Cert.RowsTransposed

variable (m : (ℓ : Loc nD τ sig) → Buf (Elt Ideal) ℓ) (ρ : Dev nD → PrngReg)

/-- After the first region its output array holds the inner products of the rows of x with the rows of W1. -/
theorem first_product (c : Dev nD) :
    W4 m ρ c (Proc.devRef .tc main_v30) = rowsDot (a := 100000) (n := 128) (b := 16) (m ((c : Thread nD τ).loc main_arg0)) (m ((c : Thread nD τ).loc main_arg2)) :=
  ((W4_arr m ρ c 2).trans (Layer1.array_eq (V3 m ρ) c)).trans
    (congrArg₂ (rowsDot (a := 100000) (n := 128) (b := 16)) (Stretches.entry_arg0 m ρ c) (Stretches.entry_arg2 m ρ c))

/-- After the second region its output array holds the inner products of the rows of the hidden layer with the rows
    of W2. -/
theorem second_product (c : Dev nD) :
    W7 m ρ c (Proc.devRef .tc main_v48)
      = rowsDot (a := 100000) (n := 16) (b := 1)
          (Cert.GraphConv.hiddenLayer (Cert.GraphConv.srcOf (m ((c : Thread nD τ).loc main_arg1))) (Cert.GraphConv.dstOf (m ((c : Thread nD τ).loc main_arg1)))
            (Cert.GraphConv.edgeNorm (Cert.GraphConv.srcOf (m ((c : Thread nD τ).loc main_arg1))) (Cert.GraphConv.dstOf (m ((c : Thread nD τ).loc main_arg1))))
            (rowsDot (a := 100000) (n := 128) (b := 16) (m ((c : Thread nD τ).loc main_arg0)) (m ((c : Thread nD τ).loc main_arg2))) (m ((c : Thread nD τ).loc main_arg3)))
          (m ((c : Thread nD τ).loc main_arg4)) :=
  ((W7_arr m ρ c 2).trans (Layer2.array_eq (V6 m ρ) c)).trans
    (congrArg₂ (rowsDot (a := 100000) (n := 16) (b := 1))
      ((Stretches.hidden_eq m ρ c).trans (congrArg (fun h => Cert.GraphConv.hiddenLayer (Cert.GraphConv.srcOf (m ((c : Thread nD τ).loc main_arg1))) (Cert.GraphConv.dstOf (m ((c : Thread nD τ).loc main_arg1)))
            (Cert.GraphConv.edgeNorm (Cert.GraphConv.srcOf (m ((c : Thread nD τ).loc main_arg1))) (Cert.GraphConv.dstOf (m ((c : Thread nD τ).loc main_arg1)))) h (m ((c : Thread nD τ).loc main_arg3))) (first_product m ρ c)))
      (Stretches.second_arg4 m ρ c))

/-- The result buffer at the last boundary is the network's function of the argument arrays. -/
theorem result_eq (c : Dev nD) :
    W8 m ρ c (Proc.devRef .tc main_v64)
      = Cert.GraphConv.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (Stretches.score_eq m ρ c).trans
    (congrArg (fun g => Cert.GraphConv.scoreLayer (Cert.GraphConv.srcOf (m ((c : Thread nD τ).loc main_arg1))) (Cert.GraphConv.dstOf (m ((c : Thread nD τ).loc main_arg1)))
        (Cert.GraphConv.edgeNorm (Cert.GraphConv.srcOf (m ((c : Thread nD τ).loc main_arg1))) (Cert.GraphConv.dstOf (m ((c : Thread nD τ).loc main_arg1)))) g (m ((c : Thread nD τ).loc main_arg5))) (second_product m ρ c))

/-- Every weakly fair execution ends with the result at the network's function of the arguments, the arguments as
    launched. -/
theorem run_value : θ_run defs (onTc (τ := τ) (main (F := Ideal))) ⟨m, fun _ => 0, ρ⟩ (fun r => ∀ c : Dev nD,
      r.2.mem ((c.tc : Thread nD τ).loc main_v64)
        = Cert.GraphConv.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_result m ρ)

end Cert.KernelIdeal.Result

end
-- ==== Proof.ReferenceValue.lean ====
/-
  The reference's result in the shared names.

  Its one composed term is the score layer over the hidden layer, each fed by a product with a transposed weight
  table: score(S, D, N, hidden(S, D, N, x * W1^T, b1) * W2^T, b2) with S, D the two ends of every position and N the
  positions' weights, all three computed from the edge list alone. (The program computes S, D and N a second time for
  the second layer: as terms they are the first ones again.) Both sides are the same text once the names are opened;
  no law of arithmetic is used and nothing is evaluated.
-/
import proofs.«125032_j28810640622034_1_alg».proof.Proof.ReferenceRun
import proofs.«125032_j28810640622034_1_alg».proof.Proof.GraphConv

noncomputable section

namespace Cert.ReferenceIdeal.RefValue

open Idealize.ShloMosaic Idealize.ShloMosaic.TcCoe Idealize.SL.Sem Cert.ReferenceIdeal Cert.ReferenceIdeal.Gen Cert.GraphConv

variable {F : FTy → Type} [FloatOps F]

set_option maxRecDepth 8192 in
/-- The run's term for the result is the two layers around the two products. -/
theorem result_eq (m : (ℓ : Loc nD τ sig) → Buf (Elt F) ℓ) (c : Dev nD) :
    Cert.ReferenceIdeal.ValueP.res_main_v96 m c
      = scoreLayer (srcOf (m ((c.tc : Thread nD τ).loc main_arg1))) (dstOf (m ((c.tc : Thread nD τ).loc main_arg1))) (edgeNorm (srcOf (m ((c.tc : Thread nD τ).loc main_arg1))) (dstOf (m ((c.tc : Thread nD τ).loc main_arg1))))
          (Host.dotGeneral dot_S100000x16_S16x1_S100000x1_1_0_0_1_n_n none
            (hiddenLayer (srcOf (m ((c.tc : Thread nD τ).loc main_arg1))) (dstOf (m ((c.tc : Thread nD τ).loc main_arg1))) (edgeNorm (srcOf (m ((c.tc : Thread nD τ).loc main_arg1))) (dstOf (m ((c.tc : Thread nD τ).loc main_arg1))))
              (Host.dotGeneral dot_S100000x128_S128x16_S100000x16_1_0_0_1_n_n none (m ((c.tc : Thread nD τ).loc main_arg0))
                (transpose S128x16 [1, 0] (m ((c.tc : Thread nD τ).loc main_arg2)) transposes_S16x128_S128x16_1_0))
              (m ((c.tc : Thread nD τ).loc main_arg3)))
            (transpose S16x1 [1, 0] (m ((c.tc : Thread nD τ).loc main_arg4)) transposes_S1x16_S16x1_1_0))
          (m ((c.tc : Thread nD τ).loc main_arg5)) := by
  unfold Cert.ReferenceIdeal.ValueP.res_main_v96 scoreLayer hiddenLayer edgeNorm invSqrtDegree degree wrap srcOf dstOf
  rfl

end Cert.ReferenceIdeal.RefValue

end
-- ==== Proof.ReferenceNetwork.lean ====
/-
  The reference's result on the extended reals.

  Its term is the two layers around two contractions of axis 1 with axis 0 of a transposed weight table; on the
  extended reals each contraction is the table of inner products of rows with rows, so the reference too ends with the
  network's function of the six argument arrays.
-/
import proofs.«125032_j28810640622034_1_alg».proof.Proof.ReferenceValue
import proofs.«125032_j28810640622034_1_alg».proof.Proof.Network

noncomputable section

namespace Cert.ReferenceIdeal.RefValue

open Idealize.ShloMosaic Idealize.ShloMosaic.TcCoe Idealize.SL.Sem Cert.ReferenceIdeal Cert.ReferenceIdeal.Gen Cert.GraphConv Cert.RowsTransposed

/-- The run's term for the result is the network's function of the argument arrays. -/
theorem result_network (m : (ℓ : Loc nD τ sig) → Buf (Elt Ideal) ℓ) (c : Dev nD) :
    Cert.ReferenceIdeal.ValueP.res_main_v96 m c
      = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (result_eq m c).trans
    (congrArg (fun g => scoreLayer (srcOf (m ((c.tc : Thread nD τ).loc main_arg1))) (dstOf (m ((c.tc : Thread nD τ).loc main_arg1))) (edgeNorm (srcOf (m ((c.tc : Thread nD τ).loc main_arg1))) (dstOf (m ((c.tc : Thread nD τ).loc main_arg1)))) g (m ((c.tc : Thread nD τ).loc main_arg5)))
      ((congrArg (fun h => Host.dotGeneral (F := Ideal) dot_S100000x16_S16x1_S100000x1_1_0_0_1_n_n none
            (hiddenLayer (srcOf (m ((c.tc : Thread nD τ).loc main_arg1))) (dstOf (m ((c.tc : Thread nD τ).loc main_arg1))) (edgeNorm (srcOf (m ((c.tc : Thread nD τ).loc main_arg1))) (dstOf (m ((c.tc : Thread nD τ).loc main_arg1)))) h (m ((c.tc : Thread nD τ).loc main_arg3))) (transpose S16x1 [1, 0] (m ((c.tc : Thread nD τ).loc main_arg4)) transposes_S1x16_S16x1_1_0))
          (dotGeneral_transposed (a := 100000) (n := 128) (b := 16) dot_S100000x128_S128x16_S100000x16_1_0_0_1_n_n_wf _ rfl
            (m ((c.tc : Thread nD τ).loc main_arg0)) (m ((c.tc : Thread nD τ).loc main_arg2)) transposes_S16x128_S128x16_1_0)).trans
        (dotGeneral_transposed (a := 100000) (n := 16) (b := 1) dot_S100000x16_S16x1_S100000x1_1_0_0_1_n_n_wf _ rfl
          (hiddenLayer (srcOf (m ((c.tc : Thread nD τ).loc main_arg1))) (dstOf (m ((c.tc : Thread nD τ).loc main_arg1))) (edgeNorm (srcOf (m ((c.tc : Thread nD τ).loc main_arg1))) (dstOf (m ((c.tc : Thread nD τ).loc main_arg1)))) (rowsDot (a := 100000) (n := 128) (b := 16) (m ((c.tc : Thread nD τ).loc main_arg0)) (m ((c.tc : Thread nD τ).loc main_arg2))) (m ((c.tc : Thread nD τ).loc main_arg3))) (m ((c.tc : Thread nD τ).loc main_arg4))
          transposes_S1x16_S16x1_1_0)))

end Cert.ReferenceIdeal.RefValue

end
-- ==== Proof.lean ====
/-
  Two-layer graph convolution: the tiled kernel against the plain reference, on the extended reals.

  Both programs compute, for a node table x, an edge list e and weights (W1, b1), (W2, b2),
      score(S, D, N, hidden(S, D, N, x * W1^T, b1) * W2^T, b2)
  where S, D are the two ends of every position of the edge list with the loops appended, N the positions' weights
  deg(S)^(-1/2) * deg(D)^(-1/2), and each layer gathers rows at S, scales them by N, adds them into rows D and adds its
  bias (the first layer is then cut below at 0). The kernel computes the two products with a transposed weight table on
  the matrix unit, ten blocks of 10000 rows at a time, from operands cut to a shorter float format; the reference
  contracts with the transposed table in one host operation; and the reference computes S, D, N once per layer where
  the kernel computes them once. On the extended reals a change of float format is the identity and both products are
  the table of inner products of rows with rows, term for term, so the two results are one function of the arguments.
  No finiteness of the inputs is used: the only laws are that a sum is re-indexed by its one contracted coordinate and
  that the blocks of rows tile the table.

  The three frames are the generated run of the kernel at both instances and the reference's run with the result
  dropped; the idealization rewrote no operation, so what it preserves is trivial.
-/
import proofs.«125032_j28810640622034_1_alg».proof.Defs
import proofs.«125032_j28810640622034_1_alg».proof.Proof.Gen.Kernel
import proofs.«125032_j28810640622034_1_alg».proof.Proof.Gen.Kernel.Skeleton
import proofs.«125032_j28810640622034_1_alg».proof.Proof.Gen.Kernel.Launch
import proofs.«125032_j28810640622034_1_alg».proof.Proof.Gen.Kernel.Points
import proofs.«125032_j28810640622034_1_alg».proof.Proof.Gen.Kernel.Frame
import proofs.«125032_j28810640622034_1_alg».proof.Proof.Gen.KernelIdeal
import proofs.«125032_j28810640622034_1_alg».proof.Proof.Gen.KernelIdeal.Skeleton
import proofs.«125032_j28810640622034_1_alg».proof.Proof.Gen.KernelIdeal.Launch
import proofs.«125032_j28810640622034_1_alg».proof.Proof.Gen.KernelIdeal.Points
import proofs.«125032_j28810640622034_1_alg».proof.Proof.Gen.KernelIdeal.Frame
import proofs.«125032_j28810640622034_1_alg».proof.Proof.Gen.ReferenceIdeal
import proofs.«125032_j28810640622034_1_alg».proof.Proof.Gen.Pre_finite_inputs
import proofs.«125032_j28810640622034_1_alg».proof.Proof.KernelValue
import proofs.«125032_j28810640622034_1_alg».proof.Proof.ReferenceNetwork
import Idealize.ShloMosaic.Adequacy
import Idealize.ShloMosaic.Init

noncomputable section

namespace Cert.Proof

open Idealize.ShloMosaic Idealize.SL.Sem

/-- The kernel as printed runs and leaves its arguments. -/
theorem frame_kernel : Cert.frame_Kernel := fun m ρ _ => Cert.Kernel.Gen.frame m ρ

/-- The idealized kernel runs and leaves its arguments. -/
theorem frame_ideal : Cert.frame_KernelIdeal := fun m ρ _ => Cert.KernelIdeal.Gen.frame m ρ

/-- The reference runs and leaves its arguments: its run, the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the six arguments both programs end with the network's function of those arguments. -/
theorem algebraic : Cert.algebraic_KernelIdeal_ReferenceIdeal := by
  intro m ρ m' ρ' _ hagree
  refine ⟨_, Cert.KernelIdeal.Result.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_network m' c, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
